-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096x16 : Shape := ⟨3, ![512, 4096, 16]⟩
abbrev S512x16 : Shape := ⟨2, ![512, 16]⟩
abbrev S_ : Shape := ⟨0, ![]⟩

class Facts : Prop where
  bcast_S_S512x4096x16 : S_.BroadcastsInDim S512x4096x16 (![] : Fin 0 → Fin S512x4096x16.rank)
  reducesTo_S512x4096x16_S_d0_1_2 : S512x4096x16.ReducesTo [0, 1, 2] S_
  h_S_ : 0 < S_.numel
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S512x4096x16 .f32) (main_arg1 : FVec F S512x4096x16 .f32) (main_arg2 : FVec F S512x16 .f32) : IVec S_ 1 :=
  let main_v0 : FVec F S512x4096x16 .f32 := Host.absf main_arg0
  let main_cst : FVec F S_ .f32 := constant S_ .f32 0x7F800000#32
  let main_v1 : FVec F S512x4096x16 .f32 := broadcastInDim S512x4096x16 ![] bcast_S_S512x4096x16 main_cst
  let main_v2 : IVec S512x4096x16 1 := cmpf .olt main_v0 main_v1
  let main_c : IVec S_ 1 := constantI S_ 1 1#1
  let main_v3 : IVec S_ 1 := (fun x v => Host.reduce IntOp.andi x v reducesTo_S512x4096x16_S_d0_1_2 h_S_) main_v2 main_c
  let main_v4 : FVec F S512x4096x16 .f32 := Host.absf main_arg1
  let main_cst_0 : FVec F S_ .f32 := constant S_ .f32 0x7F800000#32
  let main_v5 : FVec F S512x4096x16 .f32 := broadcastInDim S512x4096x16 ![] bcast_S_S512x4096x16 main_cst_0
  let main_v6 : IVec S512x4096x16 1 := cmpf .olt main_v4 main_v5
  let main_c_1 : IVec S_ 1 := constantI S_ 1 1#1
  let main_v7 : IVec S_ 1 := (fun x v => Host.reduce IntOp.andi x v reducesTo_S512x4096x16_S_d0_1_2 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  main_v13
-- ==== Kernel.lean ====
abbrev S512x4096x16 : Shape := ⟨3, ![512, 4096, 16]⟩
abbrev S512x16 : Shape := ⟨2, ![512, 16]⟩
abbrev S_ : Shape := ⟨0, ![]⟩
abbrev S512 : Shape := ⟨1, ![512]⟩
abbrev S512x1x16 : Shape := ⟨3, ![512, 1, 16]⟩
abbrev S512x1 : Shape := ⟨2, ![512, 1]⟩
abbrev S16x512x16 : Shape := ⟨3, ![16, 512, 16]⟩
abbrev S16x1x16 : Shape := ⟨3, ![16, 1, 16]⟩
abbrev S16x1 : Shape := ⟨2, ![16, 1]⟩
abbrev S16x1x1 : Shape := ⟨3, ![16, 1, 1]⟩
abbrev S16x512 : Shape := ⟨2, ![16, 512]⟩
abbrev S16x512x1 : Shape := ⟨3, ![16, 512, 1]⟩
abbrev S16 : Shape := ⟨1, ![16]⟩

abbrev nBuf : Space → Nat
  | .hbm => 34
  | .vmem => 10
  | .smem => 0
  | _ => 0

abbrev bufTy : (tb : Table) → Fin (tcTables nBuf tb) → BufTy
  | .hbm, ⟨0, _⟩ => ⟨S512x4096x16, .f32⟩
  | .hbm, ⟨1, _⟩ => ⟨S512x4096x16, .f32⟩
  | .hbm, ⟨2, _⟩ => ⟨S512x16, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .i1⟩
  | .hbm, ⟨11, _⟩ => ⟨S512x1x16, .f32⟩
  | .hbm, ⟨12, _⟩ => ⟨S512x1, .f32⟩
  | .hbm, ⟨13, _⟩ => ⟨S512x1, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S16x512x16, .f32⟩
  | .local _ .vmem, ⟨1, _⟩ => ⟨S16x512x16, .f32⟩
  | .local _ .vmem, ⟨2, _⟩ => ⟨S16x512x16, .f32⟩
  | .local _ .vmem, ⟨3, _⟩ => ⟨S16x512x16, .f32⟩
  | .local _ .vmem, ⟨4, _⟩ => ⟨S16x1x16, .f32⟩
  | .local _ .vmem, ⟨5, _⟩ => ⟨S16x1x16, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S16x1, .f32⟩
  | _, _ => ⟨S512x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_cst_7 : Ref sig .tc := ⟨.hbm, 29, rfl⟩
abbrev main_call1_v0 : Ref sig .tc := ⟨.hbm, 30, rfl⟩
abbrev main_v16 : Ref sig .tc := ⟨.hbm, 31, rfl⟩
abbrev main_cst_8 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S512x16_S512_d1 : S512x16.ReducesTo [1] S512
  h_S_ : 0 < S_.numel
  bcast_S_S512 : S_.BroadcastsInDim S512 (![] : Fin 0 → Fin S512.rank)
  shapeCasts_S512x16_S512x1x16 : S512x16.ShapeCasts S512x1x16
  shapeCasts_S512_S512x1 : S512.ShapeCasts S512x1
  inb_S16x1_S16x1_0_0 : ∀ a, (![0, 0] : Fin 2 → Nat) a + S16x1.size a ≤ S16x1.size a
  h_S16x1 : 0 < S16x1.numel
  inb_S16x1x16_S16x1x16_0_0_0 : ∀ a, (![0, 0, 0] : Fin 3 → Nat) a + S16x1x16.size a ≤ S16x1x16.size a
  h_S16x1x16 : 0 < S16x1x16.numel
  shapeCasts_S16x1x16_S16x1x16 : S16x1x16.ShapeCasts S16x1x16
  shapeCasts_S16x1_S16x1 : S16x1.ShapeCasts S16x1
  shapeCasts_S16x1_S16x1x1 : S16x1.ShapeCasts S16x1x1
  inb_S16x512x16_S16x512x16_0_0_0 : ∀ a, (![0, 0, 0] : Fin 3 → Nat) a + S16x512x16.size a ≤ S16x512x16.size a
  h_S16x512x16 : 0 < S16x512x16.numel
  broadcasts_S16x1x16_S16x512x16 : S16x1x16.Broadcasts S16x512x16
  reduces_S16x512x16_S16x512 : S16x512x16.Reduces [2] S16x512
  shapeCasts_S16x512_S16x512x1 : S16x512.ShapeCasts S16x512x1
  broadcasts_S16x1x1_S16x512x1 : S16x1x1.Broadcasts S16x512x1
  broadcasts_S16x512x1_S16x512x16 : S16x512x1.Broadcasts S16x512x16
  broadcasts_S16x1_S16x512 : S16x1.Broadcasts S16x512
  reduces_S16x512_S16 : S16x512.Reduces [1] S16
  shapeCasts_S16_S16x1 : S16.ShapeCasts S16x1
  shapeCasts_S512x1_S512 : S512x1.ShapeCasts S512
  reducesTo_S512_S_d0 : S512.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x16.size a ≤ S512x4096x16.size a
  hwx0_0 : ∀ i : grid0.Coords, EltTy.bits .f32 = 32 ∨ (Rect.block (s := S512x4096x16) S16x512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x16.size a ≤ S512x4096x16.size a
  hwx0_1 : ∀ i : grid0.Coords, EltTy.bits .f32 = 32 ∨ (Rect.block (s := S512x4096x16) S16x512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x16.size a ≤ S512x1x16.size a
  hwx0_2 : ∀ i : grid0.Coords, EltTy.bits .f32 = 32 ∨ (Rect.block (s := S512x1x16) S16x1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S512x1.size a
  hwx0_3 : ∀ i : grid0.Coords, EltTy.bits .f32 = 32 ∨ (Rect.block (s := S512x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S512x1.size a
  hwx0_4 : ∀ i : grid0.Coords, EltTy.bits .f32 = 32 ∨ (Rect.block (s := S512x1) S16x1.size (cc0_transform_4 i) (hinb0_4 i)).WholeWords (EltTy.packing .f32)

variable [Facts₀]

abbrev win0_0 : Pipeline.Window sig grid0 :=
  Pipeline.Window.ofSpec (Memref.whole main_arg0) S16x512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x1x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x4096x16 : Shape := ⟨3, ![512, 4096, 16]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x1x16 : Shape := ⟨3, ![512, 1, 16]⟩
abbrev S512x4096 : Shape := ⟨2, ![512, 4096]⟩
abbrev S512x4096x1 : Shape := ⟨3, ![512, 4096, 1]⟩
abbrev S512x1x1 : Shape := ⟨3, ![512, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S512x4096x16, .f32⟩
  | .hbm, ⟨1, _⟩ => ⟨S512x4096x16, .f32⟩
  | .hbm, ⟨2, _⟩ => ⟨S512x16, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S512x1, .f32⟩
  | .hbm, ⟨9, _⟩ => ⟨S512x1x16, .f32⟩
  | .hbm, ⟨10, _⟩ => ⟨S512x4096x16, .f32⟩
  | .hbm, ⟨11, _⟩ => ⟨S512x4096x16, .f32⟩
  | .hbm, ⟨12, _⟩ => ⟨S_, .f32⟩
  | .hbm, ⟨13, _⟩ => ⟨S512x4096, .f32⟩
  | .hbm, ⟨14, _⟩ => ⟨S512x4096x1, .f32⟩
  | .hbm, ⟨15, _⟩ => ⟨S512x1x1, .f32⟩
  | .hbm, ⟨16, _⟩ => ⟨S512x4096x1, .f32⟩
  | .hbm, ⟨17, _⟩ => ⟨S512x4096x1, .f32⟩
  | .hbm, ⟨18, _⟩ => ⟨S512x4096x16, .f32⟩
  | .hbm, ⟨19, _⟩ => ⟨S512x4096x16, .f32⟩
  | .hbm, ⟨20, _⟩ => ⟨S512x4096x16, .f32⟩
  | .hbm, ⟨21, _⟩ => ⟨S512x4096x16, .f32⟩
  | .hbm, ⟨22, _⟩ => ⟨S512x4096x16, .f32⟩
  | .hbm, ⟨23, _⟩ => ⟨S_, .f32⟩
  | .hbm, ⟨24, _⟩ => ⟨S512x4096, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x4096, .f32⟩
  | .hbm, ⟨29, _⟩ => ⟨S512x4096, .f32⟩
  | .hbm, ⟨30, _⟩ => ⟨S512x4096x16, .f32⟩
  | .hbm, ⟨31, _⟩ => ⟨S512x4096x16, .f32⟩
  | .hbm, ⟨32, _⟩ => ⟨S_, .f32⟩
  | .hbm, ⟨33, _⟩ => ⟨S512x4096, .f32⟩
  | .hbm, ⟨34, _⟩ => ⟨S512x4096x1, .f32⟩
  | .hbm, ⟨35, _⟩ => ⟨S512x1x1, .f32⟩
  | .hbm, ⟨36, _⟩ => ⟨S512x4096x1, .f32⟩
  | .hbm, ⟨37, _⟩ => ⟨S512x4096x1, .f32⟩
  | .hbm, ⟨38, _⟩ => ⟨S512x4096x16, .f32⟩
  | .hbm, ⟨39, _⟩ => ⟨S512x4096x16, .f32⟩
  | .hbm, ⟨40, _⟩ => ⟨S512x4096x16, .f32⟩
  | .hbm, ⟨41, _⟩ => ⟨S512x4096x16, .f32⟩
  | .hbm, ⟨42, _⟩ => ⟨S512x4096x16, .f32⟩
  | .hbm, ⟨43, _⟩ => ⟨S_, .f32⟩
  | .hbm, ⟨44, _⟩ => ⟨S512x4096, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x4096, .f32⟩
  | .hbm, ⟨49, _⟩ => ⟨S512x4096, .f32⟩
  | .hbm, ⟨50, _⟩ => ⟨S512x4096, .f32⟩
  | .hbm, ⟨51, _⟩ => ⟨S512x4096, .f32⟩
  | .hbm, ⟨52, _⟩ => ⟨S_, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .i1⟩
  | .hbm, ⟨60, _⟩ => ⟨S512, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S512x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_cst_11 : Ref sig .tc := ⟨.hbm, 63, rfl⟩
abbrev main_call0_v0 : Ref sig .tc := ⟨.hbm, 64, rfl⟩
abbrev main_call0_v1 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_call1_v0 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  reducesTo_S512x16_S512_d1 : S512x16.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x16_S512x1x16_0_2 : S512x16.BroadcastsInDim S512x1x16 (![0, 2] : Fin 2 → Fin S512x1x16.rank)
  bcast_S512x1x16_S512x4096x16_0_1_2 : S512x1x16.BroadcastsInDim S512x4096x16 (![0, 1, 2] : Fin 3 → Fin S512x4096x16.rank)
  reducesTo_S512x4096x16_S512x4096_d2 : S512x4096x16.ReducesTo [2] S512x4096
  bcast_S512x4096_S512x4096x1_0_1 : S512x4096.BroadcastsInDim S512x4096x1 (![0, 1] : Fin 2 → Fin S512x4096x1.rank)
  bcast_S512x1_S512x1x1_0_1 : S512x1.BroadcastsInDim S512x1x1 (![0, 1] : Fin 2 → Fin S512x1x1.rank)
  bcast_S512x1x1_S512x4096x1_0_1_2 : S512x1x1.BroadcastsInDim S512x4096x1 (![0, 1, 2] : Fin 3 → Fin S512x4096x1.rank)
  bcast_S512x4096x1_S512x4096x16_0_1_2 : S512x4096x1.BroadcastsInDim S512x4096x16 (![0, 1, 2] : Fin 3 → Fin S512x4096x16.rank)
  bcast_S_S512x1 : S_.BroadcastsInDim S512x1 (![] : Fin 0 → Fin S512x1.rank)
  bcast_S512x1_S512x4096_0_1 : S512x1.BroadcastsInDim S512x4096 (![0, 1] : Fin 2 → Fin S512x4096.rank)
  reducesTo_S512x4096_S512_d1 : S512x4096.ReducesTo [1] S512
  reducesTo_S512_S_d0 : S512.ReducesTo [0] S_

variable [Facts₀]

class Facts : Prop extends Facts₀ where

variable [Facts]
-- ==== Proof.KCases.lean ====
/-
  What one grid point leaves in the accumulator's staging buffer, case by case, as a pure function of the four
  input blocks `x0` (pred), `x1` (target), `x2` (the replicate weights), `x3` (the clamped counts) and, where the point
  reads the accumulator before overwriting it, of its previous contents `prev`.

  Write `add prev` for the body's one accumulating store: `prev` plus the tile's partial sum (`k0_pay1`). Then
    - at the first time tile the body first stores the zero block and accumulates onto it:      `add 0`;
    - at a middle tile it accumulates onto what the previous point left:                        `add prev`;
    - at the last tile it accumulates and then divides the whole block by 4096 (`k0_pay2`):     `(add prev) / 4096`.
  Each is read off the stores the run of that case found: they cover the block, the last store wins, and a load of a
  block a previous store of the same point covered reads that store's value.
-/
import proofs.«122349_j25503515804232_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulating store's value: the accumulator's contents `prev` plus the tile's partial sum of squared
    variance differences, from the four input blocks. -/
abbrev add (x0 x1 : Vec F S16x512x16 .f32) (x2 : Vec F S16x1x16 .f32) (x3 prev : Vec F S16x1 .f32) : FVec F S16x1 .f32 :=
  k0_pay1 (k0_pay5 x3) (k0_pay7 x2 x3 x0) (k0_pay8 x2 x3 x1) (Scalar.ofBits .f32 0x3F800000#32) prev

/-- A middle time tile: the accumulator ends at its previous contents plus this tile's partial sum. -/
theorem out_B (c : Dev nD) (i : grid0.Coords) (a2 : Memref sig .tc .vmem S16x512x16 .f32) (h2 : a2.IsWhole) (a3 : Memref sig .tc .vmem S16x512x16 .f32) (h3 : a3.IsWhole) (a4 : Memref sig .tc .vmem S16x1x16 .f32) (h4 : a4.IsWhole) (a5 : Memref sig .tc .vmem S16x1 .f32) (h5 : a5.IsWhole) (a6 : Memref sig .tc .vmem S16x1 .f32) (h6 : a6.IsWhole) (hc0 : ¬cond0_0 i) (hc1 : ¬cond0_1 i)
    (x0 x1 : Vec F S16x512x16 .f32) (x2 : Vec F S16x1x16 .f32) (x3 prev : Vec F S16x1 .f32) :
    out0_B_4 c i a2 h2 a3 h3 a4 h4 a5 h5 a6 h6 hc0 hc1 x0 x1 x2 x3 prev = add x0 x1 x2 x3 prev := by
  unfold out0_B_4
  rw [View.read_writes_eq_canon _ _ _ (cover0_B_4 c i a2 h2 a3 h3 a4 h4 a5 h5 a6 h6 hc0 hc1 x0 x1 x2 x3 prev)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S16x1) hz2, View.ld_unit_zero (S := S16x512x16) hz3, View.ld_unit_zero (S := S16x1x16) hz3]

/-- The first time tile: the zero block is stored first, so the accumulator ends at zero plus this tile's partial sum. -/
theorem out_A (c : Dev nD) (i : grid0.Coords) (a2 : Memref sig .tc .vmem S16x512x16 .f32) (h2 : a2.IsWhole) (a3 : Memref sig .tc .vmem S16x512x16 .f32) (h3 : a3.IsWhole) (a4 : Memref sig .tc .vmem S16x1x16 .f32) (h4 : a4.IsWhole) (a5 : Memref sig .tc .vmem S16x1 .f32) (h5 : a5.IsWhole) (a6 : Memref sig .tc .vmem S16x1 .f32) (h6 : a6.IsWhole) (hc0 : cond0_0 i) (hc1 : ¬cond0_1 i)
    (x0 x1 : Vec F S16x512x16 .f32) (x2 : Vec F S16x1x16 .f32) (x3 : Vec F S16x1 .f32) :
    out0_A_4 c i a2 h2 a3 h3 a4 h4 a5 h5 a6 h6 hc0 hc1 x0 x1 x2 x3 = add x0 x1 x2 x3 (k0_pay3 (F := F)) := by
  unfold out0_A_4
  rw [View.read_writes_eq_canon _ _ _ (cover0_A_4 c i a2 h2 a3 h3 a4 h4 a5 h5 a6 h6 hc0 hc1 x0 x1 x2 x3)]
  unfold kernelRun0_A
  dsimp only
  sl_unfold_words
  rw [View.canon_cons_unit_zero (S := S16x1) hz2, View.readCov_unit_zero (S := S16x1) _ hz2]
  simp only [View.readAt_eq_ld, h2.read_unread, h3.read_unread, h4.read_unread, h5.read_unread, h6.read_unread,
    View.ld_unit_zero (S := S16x1) hz2, View.ld_unit_zero (S := S16x512x16) hz3, View.ld_unit_zero (S := S16x1x16) hz3]

/-- The last time tile: the accumulated block is read back and divided by 4096. -/
theorem out_C (c : Dev nD) (i : grid0.Coords) (a2 : Memref sig .tc .vmem S16x512x16 .f32) (h2 : a2.IsWhole) (a3 : Memref sig .tc .vmem S16x512x16 .f32) (h3 : a3.IsWhole) (a4 : Memref sig .tc .vmem S16x1x16 .f32) (h4 : a4.IsWhole) (a5 : Memref sig .tc .vmem S16x1 .f32) (h5 : a5.IsWhole) (a6 : Memref sig .tc .vmem S16x1 .f32) (h6 : a6.IsWhole) (hc0 : ¬cond0_0 i) (hc1 : cond0_1 i)
    (x0 x1 : Vec F S16x512x16 .f32) (x2 : Vec F S16x1x16 .f32) (x3 prev : Vec F S16x1 .f32) :
    out0_C_4 c i a2 h2 a3 h3 a4 h4 a5 h5 a6 h6 hc0 hc1 x0 x1 x2 x3 prev = k0_pay2 (add x0 x1 x2 x3 prev) := by
  unfold out0_C_4
  rw [View.read_writes_eq_canon _ _ _ (cover0_C_4 c i a2 h2 a3 h3 a4 h4 a5 h5 a6 h6 hc0 hc1 x0 x1 x2 x3 prev)]
  unfold kernelRun0_C
  dsimp only
  sl_unfold_words
  rw [View.canon_cons_unit_zero (S := S16x1) hz2, View.readCov_unit_zero (S := S16x1) _ hz2]
  simp only [View.readAt_eq_ld, h2.read_unread, h3.read_unread, h4.read_unread, h5.read_unread, h6.read_unread,
    View.ld_unit_zero (S := S16x1) hz2, View.ld_unit_zero (S := S16x512x16) hz3, View.ld_unit_zero (S := S16x1x16) hz3]

end Cert.KernelIdeal.Cases

end
-- ==== Proof.Spec.lean ====
/-
  The loss as mathematics over the extended reals, with no program in sight.

  For one batch row: `mk` is its 16 replicate weights, `ns` its clamped replicate count, and for one time step
  `x` is the 16 replicate values. The masked mean is `(∑ᵣ xᵣ·mkᵣ) / ns`, the masked sum of squared deviations is
  `∑ᵣ (xᵣ − mean)²·mkᵣ`, the unbiased variance divides that by `ns − 1`, and one time step contributes the squared
  difference of the two arrays' variances. A row's mean over the 4096 time steps is what both programs compute:
  one sums all 4096 steps at once, the other sums 8 tiles of 512 steps into an accumulator that starts at zero.
  The only law joining them is that a sum over 4096 = 8 · 512 indices is the sum over tiles of the sums inside each
  tile — commutativity and associativity of `+`, which the extended reals have; no finiteness is used.

  The float words for 0, 1 and 4096 are kept as words: only the zero word is ever evaluated (it is `0`).
-/
import Idealize.ShloMosaic.PureOps.Ideal
import Idealize.ShloMosaic.PureOps.Ideal.Laws
import Idealize.ShloMosaic.Lib.ValueIdx

noncomputable section

namespace Cert.Spec

open Idealize.ShloMosaic

/-- The f32 words `0.0`, `1.0`, `2.0`, `4096.0` read as extended reals. -/
abbrev zero : EReal := Ideal.ofBits .f32 0x00000000#32
abbrev one : EReal := Ideal.ofBits .f32 0x3F800000#32
abbrev two : EReal := Ideal.ofBits .f32 0x40000000#32
abbrev c4096 : EReal := Ideal.ofBits .f32 0x45800000#32

theorem zero_eq : zero = 0 := Ideal.ofBits_zero_f32

/-- The masked mean of 16 replicates: `(∑ᵣ xᵣ·mkᵣ) / ns`. -/
def mean (mk x : Fin 16 → EReal) (ns : EReal) : EReal := Ideal.div (∑ r : Fin 16, x r * mk r) ns

/-- The masked sum of squared deviations from that mean: `∑ᵣ (xᵣ − mean)²·mkᵣ`. -/
def sq (mk x : Fin 16 → EReal) (ns : EReal) : EReal :=
  ∑ r : Fin 16, (x r - mean mk x ns) * (x r - mean mk x ns) * mk r

/-- The unbiased masked variance: the sum of squared deviations over `ns − 1`. -/
def var (mk x : Fin 16 → EReal) (ns : EReal) : EReal := Ideal.div (sq mk x ns) (ns - one)

/-- One time step's contribution: the squared difference of the two variances. -/
def sqdiff (mk p q : Fin 16 → EReal) (ns : EReal) : EReal :=
  (var mk p ns - var mk q ns) * (var mk p ns - var mk q ns)

/-- The accumulator as a grid of tiles forms it: it starts at the zero word and adds one tile's partial sum per step. -/
def acc (f : ℕ → EReal) : ℕ → EReal
  | 0 => zero
  | k + 1 => acc f k + f k

/-- After `k` steps the accumulator holds the sum of the first `k` partial sums. -/
theorem acc_eq (f : ℕ → EReal) (k : ℕ) : acc f k = ∑ j ∈ Finset.range k, f j := by
  induction k with
  | zero => simp [acc, zero_eq]
  | succ k ih => rw [acc, ih, Finset.sum_range_succ]

/-- A sum over 4096 = 8 · 512 indices is the sum over the 8 tiles of the sums over each tile's 512 indices. -/
theorem sum_tiles (g : Fin 4096 → EReal) :
    ∑ t : Fin 4096, g t
      = ∑ j : Fin 8, ∑ q : Fin 512, g ⟨512 * j.val + q.val, by have := j.isLt; have := q.isLt; omega⟩ := by
  rw [← Equiv.sum_comp (finProdFinEquiv (m := 8) (n := 512)) g, Fintype.sum_prod_type]
  refine Finset.sum_congr rfl fun j _ => Finset.sum_congr rfl fun q _ => congrArg g (Fin.ext ?_)
  simp only [finProdFinEquiv_apply_val]
  omega

/-- So eight accumulation steps over tile sums give the zero word plus the whole sum: the tiled accumulation and the
    one reduction from a zero initial value are the same extended real. -/
theorem acc_tiles (g : Fin 4096 → EReal) (f : ℕ → EReal)
    (hf : ∀ j : Fin 8, f j.val = ∑ q : Fin 512, g ⟨512 * j.val + q.val, by have := j.isLt; have := q.isLt; omega⟩) :
    acc f 8 = zero + ∑ t : Fin 4096, g t := by
  rw [acc_eq, Finset.sum_range, sum_tiles, zero_eq, zero_add]
  exact Finset.sum_congr rfl fun j _ => hf j

/-- A row's clamped replicate count: the sum of its 16 weights from the zero word, but at least 2. -/
def nsafe (mk : Fin 16 → EReal) : EReal := max (zero + ∑ r : Fin 16, mk r) two

/-- A row's result: the mean over the 4096 time steps of the squared variance difference, summed in one reduction
    from the zero word. `p t` and `q t` are the two arrays' 16 replicates at time `t`. -/
def rowMean (mk : Fin 16 → EReal) (p q : Fin 4096 → Fin 16 → EReal) : EReal :=
  Ideal.div (zero + ∑ t : Fin 4096, sqdiff mk (p t) (q t) (nsafe mk)) c4096

/-- The same row computed tile by tile: if `f j` is tile `j`'s sum of the 512 squared variance differences, eight
    accumulation steps from the zero word followed by the division by 4096 give the row's result. -/
theorem rowMean_of_acc (mk : Fin 16 → EReal) (p q : Fin 4096 → Fin 16 → EReal) (f : ℕ → EReal)
    (hf : ∀ j : Fin 8, f j.val = ∑ k : Fin 512,
      sqdiff mk (p ⟨512 * j.val + k.val, by have := j.isLt; have := k.isLt; omega⟩)
        (q ⟨512 * j.val + k.val, by have := j.isLt; have := k.isLt; omega⟩) (nsafe mk)) :
    Ideal.div (acc f 8) c4096 = rowMean mk p q := by
  unfold rowMean
  rw [acc_tiles (fun t => sqdiff mk (p t) (q t) (nsafe mk)) f hf]

end Cert.Spec

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibKeepdims3.lean ====
/-
  Layout facts a reduction over the LAST axis of a three-axis array meets when its result is kept as a trailing
  unit axis and spread back, each read at an entry given by its coordinates: the sum along the last axis of an
  `[a, b, c]` array; an `[a, b]` array viewed as `[a, b, 1]` or as `[a, 1, b]`, and an `[a, 1]` array viewed as `[a, 1, 1]` or as `[a]`; and the
  three spreadings `[a, 1, 1] → [a, b, 1]`, `[a, b, 1] → [a, b, c]`, `[a, 1, c] → [a, b, c]`. They hold for any
  extents, and all but the sum for entries of any type.
-/
import Idealize.ShloMosaic.Lib.Pipeline.Value
import Idealize.ShloMosaic.Lib.ValueIdx
import Idealize.ShloMosaic.PureOps.Ideal.Laws

noncomputable section

open scoped BigOperators

namespace Cert.LibKeepdims3

open Idealize.ShloMosaic Idealize.ShloMosaic.ValueIdx

variable {α : Type}

/-- An `[a, b]` array cast to `[a, b, 1]` reads, at `(i, j, u)`, the operand at `(i, j)`: the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, 1]` array cast to `[a]` reads, at `i`, the operand's one entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, b]` array cast to `[a, 1, b]` reads, at `(i, u, j)`, the operand at `(i, j)`: the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, 1]` array spread to `[a, b, 1]` reads, at `(i, j, u)`, the operand's one entry of row `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array spread to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread to `[a, b, c]` reads, at `(i, j, k)`, the operand at `(i, 0, k)`: the same for every `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Over the extended reals, the sum of an `[a, b, c]` array along its last axis, started from the zero word, is at
    `(i, j)` the sum over `k` of the entries `(i, j, k)`. -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  apply Fin.ext
  match ax with
  | ⟨0, _⟩ => rfl
  | ⟨1, _⟩ => rfl
  | ⟨2, _⟩ => rfl

/-- The same sum with the accumulator's side condition typed as a printed program's evidence for it really is (the
    zero word equal to itself), so that the statement is found by rewriting inside a printed value. -/
theorem multiReduction_add_last_printed {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last_apply src h hφ hacc i j

/-- The sum of an `[a, b]` array along its second axis, at row `i`, with the side condition typed as printed. -/
theorem multiReduction_add_rows_printed {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims3

end
-- ==== Proof.KPayload.lean ====
/-
  The body's arithmetic read at an entry, over the extended reals.

  A grid point's blocks are `x0`, `x1` (the two value arrays' `[16, 512, 16]` blocks: 16 rows, 512 time steps, 16
  replicates), `x2` (the rows' replicate weights, `[16, 1, 16]`) and `x3` (the rows' clamped counts, `[16, 1]`). At row
  `p` and time step `q` the body forms the masked mean over the 16 replicates, the masked sum of squared deviations
  from it, and the unbiased variance, for both arrays; the squared difference of the two variances summed over the
  block's 512 time steps is the tile's partial sum, which the accumulating store adds to the accumulator's row `p`.
  Every broadcast and cast in between only repeats or relabels entries, so at an entry each is the operand at the
  entry its coordinates name.
-/
import proofs.«122349_j25503515804232_1_alg».proof.Proof.Gen.KernelIdeal.Skeleton
import proofs.«122349_j25503515804232_1_alg».proof.Proof.Spec
import proofs.«122349_j25503515804232_1_alg».proof.Proof.LibKeepdims
import proofs.«122349_j25503515804232_1_alg».proof.Proof.LibKeepdims3
import Idealize.ShloMosaic.Lib.Pipeline.Value
import Idealize.ShloMosaic.Lib.ValueIdx

noncomputable section

open scoped BigOperators

namespace Cert.KernelIdeal.Pay

open Cert.KernelIdeal Cert.KernelIdeal.Gen Idealize.ShloMosaic Idealize.ShloMosaic.ValueIdx Cert.LibKeepdims Cert.LibKeepdims3

/-- The weights' block cast to its own shape is itself. -/
theorem pay4_eq (x2 : Vec Ideal S16x1x16 .f32) : k0_pay4 (F := Ideal) x2 = x2 := shapeCast_self x2 _

/-- The counts' block cast to its own shape is itself. -/
theorem pay5_eq (x3 : Vec Ideal S16x1 .f32) : k0_pay5 (F := Ideal) x3 = x3 := shapeCast_self x3 _

/-- The counts' block with a trailing unit axis appended reads row `p`'s count. -/
theorem pay6_apply (x3 : Vec Ideal S16x1 .f32) (p : Fin 16) (u v : Fin 1) :
    k0_pay6 (F := Ideal) x3 (ix3 p u v) = x3 (ix2 p u) := by
  unfold k0_pay6
  rw [shapeCast_a1_a11_apply, pay5_eq]

/-- The first array's unbiased masked variance at row `p`, time step `q`. -/
theorem pay7_apply (x2 : Vec Ideal S16x1x16 .f32) (x3 : Vec Ideal S16x1 .f32) (x0 : Vec Ideal S16x512x16 .f32) (p : Fin 16) (q : Fin 512) :
    k0_pay7 (F := Ideal) x2 x3 x0 (ix2 p q)
      = Cert.Spec.var (fun r => x2 (ix3 p (0 : Fin 1) r)) (fun r => x0 (ix3 p q r)) (x3 (ix2 p (0 : Fin 1))) := by
  unfold k0_pay7 Cert.Spec.var Cert.Spec.sq Cert.Spec.mean
  dsimp only
  simp only [pay4_eq, pay5_eq, pay6_apply, divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply]
  rw [multiReduction_add_last_printed]
  simp only [pay4_eq, pay5_eq, pay6_apply, divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply]
  rw [multiReduction_add_last_printed]
  simp only [pay4_eq, pay5_eq, pay6_apply, divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply]
  rfl

/-- The second array's masked sum of squared deviations at row `p`, time step `q` (its division by the count less
    one comes in the accumulating store). -/
theorem pay8_apply (x2 : Vec Ideal S16x1x16 .f32) (x3 : Vec Ideal S16x1 .f32) (x1 : Vec Ideal S16x512x16 .f32) (p : Fin 16) (q : Fin 512) :
    k0_pay8 (F := Ideal) x2 x3 x1 (ix2 p q)
      = Cert.Spec.sq (fun r => x2 (ix3 p (0 : Fin 1) r)) (fun r => x1 (ix3 p q r)) (x3 (ix2 p (0 : Fin 1))) := by
  unfold k0_pay8 Cert.Spec.sq Cert.Spec.mean
  dsimp only
  rw [multiReduction_add_last_printed]
  simp only [pay4_eq, pay5_eq, pay6_apply, divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply]
  rw [multiReduction_add_last_printed]
  simp only [pay4_eq, pay5_eq, pay6_apply, divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply]

/-- The accumulating store at row `p`: the accumulator's entry plus the sum over the block's 512 time steps of the
    squared difference of the two variances. -/
theorem add_apply (x0 x1 : Vec Ideal S16x512x16 .f32) (x2 : Vec Ideal S16x1x16 .f32) (x3 prev : Vec Ideal S16x1 .f32)
    (p : Fin 16) (u : Fin 1) :
    k0_pay1 (F := Ideal) (k0_pay5 x3) (k0_pay7 x2 x3 x0) (k0_pay8 x2 x3 x1) (Scalar.ofBits .f32 0x3F800000#32) prev (ix2 p u)
      = prev (ix2 p u) + ∑ q : Fin 512, Cert.Spec.sqdiff (fun r => x2 (ix3 p (0 : Fin 1) r)) (fun r => x0 (ix3 p q r))
          (fun r => x1 (ix3 p q r)) (x3 (ix2 p (0 : Fin 1))) := by
  unfold k0_pay1
  dsimp only
  simp only [pay4_eq, pay5_eq, pay6_apply, divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply]
  rw [multiReduction_add_rows_printed]
  simp only [pay4_eq, pay5_eq, pay6_apply, divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply, pay7_apply, pay8_apply]
  rfl

/-- The last tile's second store at row `p`: the accumulated entry divided by the word 4096. -/
theorem pay2_apply (v : Vec Ideal S16x1 .f32) (p : Fin 16) (u : Fin 1) :
    k0_pay2 (F := Ideal) v (ix2 p u) = Ideal.div (v (ix2 p u)) Cert.Spec.c4096 := by
  unfold k0_pay2
  simp only [divf_apply, mulf_apply, subf_apply, addf_apply, broadcast_apply, shapeCast_self,
    broadcastTo_a1_ab_apply, broadcastTo_ab1_abc_apply, broadcastTo_a1c_abc_apply,
    broadcastTo_a11_ab1_apply, shapeCast_ab_ab1_apply, shapeCast_a1_a11_apply, shapeCast_a_a1_apply]
  rfl

/-- The first tile's first store: the zero word everywhere. -/
theorem pay3_apply (p : Fin 16) (u : Fin 1) : k0_pay3 (F := Ideal) (ix2 p u) = Cert.Spec.zero := rfl

end Cert.KernelIdeal.Pay

end
-- ==== Proof.KInvariant.lean ====
/-
  What the accumulator's staging buffer holds after every grid point.

  Points run over the 32 batch tiles, and within a batch tile over the 8 time tiles in order: point `n` is batch tile
  `n / 8`, time tile `n % 8`. Write `part n p` for point `n`'s sum, over its block's 512 time steps, of the squared
  difference of the two variances at block row `p`. Within batch tile `i` the accumulator's row `p` follows the
  recursion of `Cert.Spec.acc` over the tile sums `j ↦ part (8·i + j) p`: it is reset to the zero word and receives the
  first tile sum at time tile 0, receives one more tile sum at each later time tile, and at time tile 7 is then divided
  by the word 4096. So after point `n` it holds `acc … (n % 8 + 1)`, and `acc … 8 / 4096` when `n % 8 = 7`. The proof
  is an induction on the point; each step is one of the body's three cases.
-/
import proofs.«122349_j25503515804232_1_alg».proof.Proof.KCases
import proofs.«122349_j25503515804232_1_alg».proof.Proof.KPayload

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Cases Cert.KernelIdeal.Pay

variable (m : (ℓ : Loc nD τ sig) → Buf (Elt Ideal) ℓ)

/-- Point `t`'s tile sum at block row `p`: over the block's 512 time steps, the squared difference of the two variances. -/
def partAt (c : Dev nD) (t : Fin cfg0.N) (p : Fin 16) : EReal :=
  ∑ q : Fin 512, Cert.Spec.sqdiff
    (fun r => (iblk m c 2 t : Vec Ideal S16x1x16 .f32) (ix3 p (0 : Fin 1) r))
    (fun r => (iblk m c 0 t : Vec Ideal S16x512x16 .f32) (ix3 p q r))
    (fun r => (iblk m c 1 t : Vec Ideal S16x512x16 .f32) (ix3 p q r))
    ((iblk m c 3 t : Vec Ideal S16x1 .f32) (ix2 p (0 : Fin 1)))

/-- The same indexed by a natural number (zero past the grid, where it is never read). -/
def part (c : Dev nD) (n : ℕ) (p : Fin 16) : EReal :=
  if h : n < cfg0.N then partAt m c ⟨n, h⟩ p else 0

theorem part_eq (c : Dev nD) (n : ℕ) (h : n < cfg0.N) (p : Fin 16) : part m c n p = partAt m c ⟨n, h⟩ p := dif_pos h

/-- The tile sums of point `n`'s batch tile, by time tile. -/
def tile (c : Dev nD) (n : ℕ) (p : Fin 16) : ℕ → EReal := fun j => part m c (8 * (n / 8) + j) p

/-- What the accumulator's row `p` holds after point `n`. -/
def held (c : Dev nD) (n : ℕ) (p : Fin 16) : EReal :=
  if n % 8 = 7 then Ideal.div (Cert.Spec.acc (tile m c n p) 8) Cert.Spec.c4096
  else Cert.Spec.acc (tile m c n p) (n % 8 + 1)

/-- The accumulating store at point `t`, row `p`, over any previous contents: their entry plus the point's tile sum. -/
theorem add_at (c : Dev nD) (t : Fin cfg0.N) (prev : Vec Ideal S16x1 .f32) (p : Fin 16) (u : Fin 1) :
    add (iblk m c 0 t) (iblk m c 1 t) (iblk m c 2 t) (iblk m c 3 t) prev (ix2 p u) = prev (ix2 p u) + partAt m c t p :=
  add_apply (iblk m c 0 t) (iblk m c 1 t) (iblk m c 2 t) (iblk m c 3 t) prev p u

/-- A first time tile: the zero word plus the tile sum. -/
theorem step_A (c : Dev nD) (t : Fin cfg0.N) (h0 : t.val % 8 = 0) (h1 : ¬t.val % 8 = 7) (p : Fin 16) (u : Fin 1) :
    outsAt0 m c t.val t.isLt (ix2 p u) = Cert.Spec.zero + partAt m c t p := by
  rw [outsAt0_A m c t h0 h1,
    out_A c (grid0.coords t) (ms0_0 t) (hs0_0 t) (ms0_1 t) (hs0_1 t) (ms0_2 t) (hs0_2 t) (ms0_3 t) (hs0_3 t) (ms0_4 t) (hs0_4 t)
      ((hcond0_0 t).mpr h0) (fun h => h1 ((hcond0_1 t).mp h)) (iblk m c 0 t) (iblk m c 1 t) (iblk m c 2 t) (iblk m c 3 t)]
  exact add_at m c t (k0_pay3 (F := Ideal)) p u

/-- A middle time tile: what the previous point left plus the tile sum. -/
theorem step_B (c : Dev nD) (t : Fin cfg0.N) (h0 : ¬t.val % 8 = 0) (h1 : ¬t.val % 8 = 7) (p : Fin 16) (u : Fin 1) :
    outsAt0 m c t.val t.isLt (ix2 p u)
      = outsAt0 m c (t.val - 1) (Nat.lt_of_le_of_lt (Nat.sub_le _ _) t.isLt) (ix2 p u) + partAt m c t p := by
  rw [outsAt0_B m c t h0 h1,
    out_B c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt))]
  exact add_at m c t _ p u

/-- The last time tile: that sum, divided by the word 4096. -/
theorem step_C (c : Dev nD) (t : Fin cfg0.N) (h0 : ¬t.val % 8 = 0) (h1 : t.val % 8 = 7) (p : Fin 16) (u : Fin 1) :
    outsAt0 m c t.val t.isLt (ix2 p u)
      = Ideal.div (outsAt0 m c (t.val - 1) (Nat.lt_of_le_of_lt (Nat.sub_le _ _) t.isLt) (ix2 p u) + partAt m c t p) Cert.Spec.c4096 := by
  rw [outsAt0_C m c t h0 h1,
    out_C c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)),
    pay2_apply]
  exact congrArg (Ideal.div · Cert.Spec.c4096) (add_at m c t _ p u)

/-! ## The accumulator's contents advance as the three cases do -/

theorem acc_succ (f : ℕ → EReal) (k : ℕ) : Cert.Spec.acc f (k + 1) = Cert.Spec.acc f k + f k := rfl

/-- At a first time tile the accumulator's row holds the zero word plus that point's tile sum. -/
theorem held_A (c : Dev nD) (n : ℕ) (p : Fin 16) (h0 : n % 8 = 0) :
    held m c n p = Cert.Spec.zero + part m c n p := by
  unfold held
  rw [if_neg (by omega), show n % 8 + 1 = 0 + 1 from by omega, acc_succ]
  show Cert.Spec.zero + part m c (8 * (n / 8) + 0) p = _
  rw [show 8 * (n / 8) + 0 = n from by omega]

/-- Points of one batch tile share their tile sums. -/
theorem tile_pred (c : Dev nD) (n : ℕ) (p : Fin 16) (h0 : ¬n % 8 = 0) : tile m c (n - 1) p = tile m c n p := by
  unfold tile
  rw [show (n - 1) / 8 = n / 8 from by omega]

/-- At a middle time tile it holds what the point before held plus this point's tile sum. -/
theorem held_B (c : Dev nD) (n : ℕ) (p : Fin 16) (h0 : ¬n % 8 = 0) (h1 : ¬n % 8 = 7) :
    held m c n p = held m c (n - 1) p + part m c n p := by
  unfold held
  rw [if_neg h1, if_neg (by omega), tile_pred m c n p h0, show n % 8 + 1 = ((n - 1) % 8 + 1) + 1 from by omega, acc_succ]
  refine congrArg (fun x => Cert.Spec.acc (tile m c n p) ((n - 1) % 8 + 1) + x) ?_
  show part m c (8 * (n / 8) + ((n - 1) % 8 + 1)) p = _
  rw [show 8 * (n / 8) + ((n - 1) % 8 + 1) = n from by omega]

/-- At the last time tile it holds that sum divided by the word 4096. -/
theorem held_C (c : Dev nD) (n : ℕ) (p : Fin 16) (h1 : n % 8 = 7) :
    held m c n p = Ideal.div (held m c (n - 1) p + part m c n p) Cert.Spec.c4096 := by
  unfold held
  rw [if_pos h1, if_neg (by omega), tile_pred m c n p (by omega), show (n - 1) % 8 + 1 = 7 from by omega]
  show Ideal.div (Cert.Spec.acc (tile m c n p) 7 + tile m c n p 7) _ = _
  refine congrArg (fun x => Ideal.div (Cert.Spec.acc (tile m c n p) 7 + x) Cert.Spec.c4096) ?_
  show part m c (8 * (n / 8) + 7) p = _
  rw [show 8 * (n / 8) + 7 = n from by omega]

/-- THE INVARIANT: after every point the accumulator's staging buffer holds, row by row, the running sum of its batch
    tile's tile sums, divided by 4096 once the batch tile's last time tile is done. By induction on the point. -/
theorem held_eq (c : Dev nD) : ∀ (n : ℕ) (hn : n < cfg0.N) (p : Fin 16) (u : Fin 1),
    outsAt0 m c n hn (ix2 p u) = held m c n p := by
  intro n
  induction n with
  | zero =>
    intro hn p u
    refine (step_A m c ⟨0, hn⟩ rfl (by dsimp only; omega) p u).trans ?_
    rw [held_A m c 0 p rfl, part_eq m c 0 hn p]
  | succ n ih =>
    intro hn p u
    by_cases h0 : (n + 1) % 8 = 0
    · refine (step_A m c ⟨n + 1, hn⟩ h0 (by dsimp only; omega) p u).trans ?_
      rw [held_A m c (n + 1) p h0, part_eq m c (n + 1) hn p]
    · by_cases h1 : (n + 1) % 8 = 7
      · refine (step_C m c ⟨n + 1, hn⟩ h0 h1 p u).trans ?_
        rw [held_C m c (n + 1) p h1, part_eq m c (n + 1) hn p]
        show Ideal.div (outsAt0 m c n (Nat.lt_of_succ_lt hn) (ix2 p u) + _) _ = Ideal.div (held m c n p + _) _
        rw [ih (Nat.lt_of_succ_lt hn) p u]
      · refine (step_B m c ⟨n + 1, hn⟩ h0 h1 p u).trans ?_
        rw [held_B m c (n + 1) p h0 h1, part_eq m c (n + 1) hn p]
        show outsAt0 m c n (Nat.lt_of_succ_lt hn) (ix2 p u) + _ = held m c n p + _
        rw [ih (Nat.lt_of_succ_lt hn) p u]

end Cert.KernelIdeal.Inv

end
-- ==== Proof.KBlocks.lean ====
/-
  A grid point's blocks as entries of the argument arrays.

  Point `t` of the 32 × 8 grid is batch tile `t / 8` and time tile `t % 8`. Its blocks of the two value arrays are rows
  `16·(t/8) … 16·(t/8)+15` and time steps `512·(t%8) … 512·(t%8)+511`; its blocks of the weights and of the clamped
  counts are the same 16 rows, whatever the time tile. The weights reach the region reshaped `[512,16] → [512,1,16]`
  and the counts as `max(0 + ∑ᵣ weights, 2)` reshaped `[512] → [512,1]`, both computed before the region from the
  third argument; read at an entry they are that argument's row and its clamped count.
-/
import proofs.«122349_j25503515804232_1_alg».proof.Proof.Gen.KernelIdeal.Frame
import proofs.«122349_j25503515804232_1_alg».proof.Proof.Spec
import proofs.«122349_j25503515804232_1_alg».proof.Proof.LibKeepdims
import proofs.«122349_j25503515804232_1_alg».proof.Proof.LibKeepdims3
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.LibKeepdims Cert.LibKeepdims3

variable {F : FTy → Type} [FloatOps F]
variable (m : (ℓ : Loc nD τ sig) → Buf (Elt F) ℓ)

theorem lt256 (t : Fin cfg0.N) : t.val < 256 := lt_of_lt_of_eq t.isLt (show cfg0.N = 256 from N_0)

/-- The batch row that block row `p` of point `t` is. -/
def row (t : Fin cfg0.N) (p : Fin 16) : Fin 512 := ⟨16 * (t.val / 8) + p.val, by have := lt256 t; omega⟩
/-- The time step that block column `q` of point `t` is. -/
def tim (t : Fin cfg0.N) (q : Fin 512) : Fin 4096 := ⟨512 * (t.val % 8) + q.val, by omega⟩

/-- Where each window's block sits, as block indices along its array's axes: batch tile, time tile, nothing else. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, win0_1.index t (0 : Fin 3) = t.val / 8 ∧ win0_1.index t (1 : Fin 3) = t.val % 8 ∧ win0_1.index t (2 : Fin 3) = 0)
theorem idx2 : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)
theorem idx3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- The first value array's block at point `t`, entry `(p, q, r)`: the array at row `row t p`, time `tim t q`. -/
theorem iblk0_apply (c : Dev nD) (t : Fin cfg0.N) (p : Fin 16) (q : Fin 512) (r : Fin 16) :
    (iblk m c 0 t : Vec F S16x512x16 .f32) (ix3 p q r)
      = m ((c : Thread nD τ).loc main_arg0) (ix3 (row t p) (tim t q) r) := by
  unfold iblk
  rw [View.read_apply]
  show V m c main_arg0 _ = _
  rw [V_main_arg0]
  refine congrArg _ (funext fun a => Fin.ext ?_)
  match a with
  | ⟨0, _⟩ => show win0_0.index t 0 * 16 + 1 * p.val = 16 * (t.val / 8) + p.val; rw [(idx0 t).1]; omega
  | ⟨1, _⟩ => show win0_0.index t 1 * 512 + 1 * q.val = 512 * (t.val % 8) + q.val; rw [(idx0 t).2.1]; omega
  | ⟨2, _⟩ => show win0_0.index t 2 * 16 + 1 * r.val = r.val; rw [(idx0 t).2.2]; omega

/-- The second value array's block likewise. -/
theorem iblk1_apply (c : Dev nD) (t : Fin cfg0.N) (p : Fin 16) (q : Fin 512) (r : Fin 16) :
    (iblk m c 1 t : Vec F S16x512x16 .f32) (ix3 p q r)
      = m ((c : Thread nD τ).loc main_arg1) (ix3 (row t p) (tim t q) r) := by
  unfold iblk
  rw [View.read_apply]
  show V m c main_arg1 _ = _
  rw [V_main_arg1]
  refine congrArg _ (funext fun a => Fin.ext ?_)
  match a with
  | ⟨0, _⟩ => show win0_1.index t 0 * 16 + 1 * p.val = 16 * (t.val / 8) + p.val; rw [(idx1 t).1]; omega
  | ⟨1, _⟩ => show win0_1.index t 1 * 512 + 1 * q.val = 512 * (t.val % 8) + q.val; rw [(idx1 t).2.1]; omega
  | ⟨2, _⟩ => show win0_1.index t 2 * 16 + 1 * r.val = r.val; rw [(idx1 t).2.2]; omega

/-! ## The two arrays the host writes before the region -/

/-- The weights as the region finds them: the third argument reshaped `[512, 16] → [512, 1, 16]`. -/
theorem V_main_v5 (c : Dev nD) :
    V m c main_v5 = shapeCast S512x1x16 (m ((c : Thread nD τ).loc main_arg2)) shapeCasts_S512x16_S512x1x16 := by
  show StableHlo.after hostOps0 (fun b => m (c, b)) (Proc.devRef .tc main_v5) = _
  after_results
  rfl

/-- The clamped counts as the region finds them: `max(0 + ∑ᵣ weights, 2)` reshaped `[512] → [512, 1]`. -/
theorem V_main_v6 (c : Dev nD) :
    V m c main_v6 = shapeCast S512x1
      (maximumf (Host.reduceAdd (m ((c : Thread nD τ).loc main_arg2)) (constant (F := F) S_ .f32 0x00000000#32) reducesTo_S512x16_S512_d1 h_S_)
        (broadcastInDim S512 ![] bcast_S_S512 (constant (F := F) S_ .f32 0x40000000#32)))
      shapeCasts_S512_S512x1 := by
  show StableHlo.after hostOps0 (fun b => m (c, b)) (Proc.devRef .tc main_v6) = _
  after_results
  rfl

/-- The weights' block at point `t`, entry `(p, ·, r)`: the third argument at row `row t p`, replicate `r`. -/
theorem iblk2_apply (c : Dev nD) (t : Fin cfg0.N) (p : Fin 16) (u : Fin 1) (r : Fin 16) :
    (iblk m c 2 t : Vec F S16x1x16 .f32) (ix3 p u r) = m ((c : Thread nD τ).loc main_arg2) (ix2 (row t p) r) := by
  unfold iblk
  rw [View.read_apply]
  show V m c main_v5 _ = _
  refine (congrArg (V m c main_v5) (?_ : _ = ix3 (row t p) (0 : Fin 1) r)).trans ?_
  · funext a
    apply Fin.ext
    match a with
    | ⟨0, _⟩ => show win0_2.index t 0 * 16 + 1 * p.val = 16 * (t.val / 8) + p.val; rw [(idx2 t).1]; omega
    | ⟨1, _⟩ => show win0_2.index t 1 * 1 + 1 * u.val = 0; rw [(idx2 t).2.1]; omega
    | ⟨2, _⟩ => show win0_2.index t 2 * 16 + 1 * r.val = r.val; rw [(idx2 t).2.2]; omega
  · rw [V_main_v5]
    exact shapeCast_ab_a1b_apply _ _ (row t p) (0 : Fin 1) r

end Cert.KernelIdeal.Blocks

/-! ## At the extended reals: the count's block is the row's clamped count -/

namespace Cert.KernelIdeal.Blocks

open Cert.KernelIdeal Cert.KernelIdeal.Gen Cert.LibKeepdims Cert.LibKeepdims3

variable (m : (ℓ : Loc nD τ sig) → Buf (Elt Ideal) ℓ)

/-- The host's sum of a row's 16 weights from the zero word. -/
theorem rowsum_apply (x : (⟨S512x16, .f32⟩ : BufTy).Contents (Elt Ideal)) (b : Fin 512) :
    Host.reduceAdd (F := Ideal) x (constant (F := Ideal) S_ .f32 0x00000000#32) reducesTo_S512x16_S512_d1 h_S_ (ix1 b)
      = Cert.Spec.zero + ∑ r : Fin 16, x (ix2 b r) := by
  simp only [Host.reduceAdd, Ideal.hostReduceAdd_def]
  rw [Ideal.hostReduceAdd_single reducesTo_S512x16_S512_d1 (by decide)]
  refine congrArg₂ (· + ·) rfl (Finset.sum_congr rfl fun k _ => ?_)
  exact congrArg x (funext fun a => Fin.ext (by match a with | ⟨0, _⟩ => rfl | ⟨1, _⟩ => rfl))

/-- The counts' block at point `t`, entry `(p, ·)`: row `row t p`'s clamped count. -/
theorem iblk3_apply (c : Dev nD) (t : Fin cfg0.N) (p : Fin 16) (u : Fin 1) :
    (iblk m c 3 t : Vec Ideal S16x1 .f32) (ix2 p u)
      = Cert.Spec.nsafe (fun r => m ((c : Thread nD τ).loc main_arg2) (ix2 (row t p) r)) := by
  unfold iblk
  rw [View.read_apply]
  show V m c main_v6 _ = _
  refine (congrArg (V m c main_v6) (?_ : _ = ix2 (row t p) (0 : Fin 1))).trans ?_
  · funext a
    apply Fin.ext
    match a with
    | ⟨0, _⟩ => show win0_3.index t 0 * 16 + 1 * p.val = 16 * (t.val / 8) + p.val; rw [(idx3 t).1]; omega
    | ⟨1, _⟩ => show win0_3.index t 1 * 1 + 1 * u.val = 0; rw [(idx3 t).2]; omega
  · rw [V_main_v6, shapeCast_a_a1_apply]
    unfold Cert.Spec.nsafe
    show max (Host.reduceAdd (F := Ideal) _ _ reducesTo_S512x16_S512_d1 h_S_ (ix1 (row t p))) _ = _
    rw [rowsum_apply]
    rfl

end Cert.KernelIdeal.Blocks

end
-- ==== Proof.KFinal.lean ====
/-
  From the write-backs to the result array.

  The accumulator's window is written back to the `[512, 1]` result array once per batch tile, after its last time
  tile: point `t` with `t % 8 = 7` writes rows `16·(t/8) … 16·(t/8)+15`. Row `b` therefore receives, from point
  `8·(b/16) + 7`, what the accumulator's row `b % 16` holds after that point. The 32 write-backs cover all 512 rows, so
  the array ends as this one function of the row.
-/
import proofs.«122349_j25503515804232_1_alg».proof.Proof.KInvariant
import proofs.«122349_j25503515804232_1_alg».proof.Proof.KBlocks

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Inv Cert.KernelIdeal.Blocks

variable (m : (ℓ : Loc nD τ sig) → Buf (Elt Ideal) ℓ)

/-- The result array: row `b` is what the accumulator's row `b % 16` holds after the last time tile of batch tile `b / 16`. -/
def res (c : Dev nD) : Buf (Elt Ideal) ((c : Thread nD τ).loc main_v7) :=
  fun (i : S512x1.Idx) => held m c (8 * ((i 0).val / 16) + 7) ⟨(i 0).val % 16, Nat.mod_lt _ (by decide)⟩

/-- Entry `(p, ·)` of point `t`'s block of the result array is the array's entry `(row t p, 0)`. -/
theorem emb4 (t : Fin cfg0.N) (p : Fin 16) (u : Fin 1) :
    ((cfg0.win 4).blk t).view.emb (ix2 p u) = ix2 (row t p) (0 : Fin 1) := by
  funext a
  apply Fin.ext
  match a with
  | ⟨0, _⟩ => show win0_4.index t 0 * 16 + 1 * p.val = 16 * (t.val / 8) + p.val; rw [(idx4 t).1]; omega
  | ⟨1, _⟩ => show win0_4.index t 1 * 1 + 1 * u.val = 0; rw [(idx4 t).2]; omega

/-- What a write-back point writes is its block of `res`. -/
theorem flushed_eq (c : Dev nD) (t : Fin cfg0.N) (hf : (cfg0.win 4).flush t = true) :
    (dats m 0 c).flushed 4 t = ((cfg0.win 4).blk t).view.read (Elt Ideal) (res m c) := by
  have h7 : t.val % 8 = 7 := (flush0_4 t).mp hf
  show (cfg0.win 4).cut (grid0.coords t) ((dats m 0 c).after 4 t) = _
  rw [after0_4]
  show (outsAt0 m c t.val t.isLt : Vec Ideal S16x1 .f32) = fun j : S16x1.Idx => res m c (((cfg0.win 4).blk t).view.emb j)
  funext j
  obtain ⟨p, u, rfl⟩ : ∃ (p : Fin 16) (u : Fin 1), j = ix2 p u := ⟨j 0, j 1, eq_ix2 j⟩
  rw [held_eq m c t.val t.isLt p u, emb4 t p u]
  have hp := p.isLt
  refine (congrArg₂ (held m c) (?_ : 8 * ((16 * (t.val / 8) + p.val) / 16) + 7 = t.val) (Fin.ext ?_ : (⟨(16 * (t.val / 8) + p.val) % 16, Nat.mod_lt _ (by decide)⟩ : Fin 16) = p)).symm
  · omega
  · show (16 * (t.val / 8) + p.val) % 16 = p.val
    omega

/-- So the result array ends as `res`: every row lies in the block of its batch tile's write-back point. -/
theorem final (c : Dev nD) : (dats m 0 c).arrAt 4 cfg0.N = res m c :=
  (dats m 0 c).arrAt_eq_of_cover 4 (res m c) (flushed_eq m c) fun (i : S512x1.Idx) => by
    have hb : (i 0).val < 512 := (i 0).isLt
    have hu : (i 1).val < 1 := (i 1).isLt
    have hlt : 8 * ((i 0).val / 16) + 7 < cfg0.N := by rw [show cfg0.N = 256 from N_0]; omega
    refine ⟨⟨8 * ((i 0).val / 16) + 7, hlt⟩, (flush0_4 _).mpr (by show (8 * ((i 0).val / 16) + 7) % 8 = 7; omega), ?_⟩
    show i ∈ ((View.whole main_v7).slice (win0_4.rect ⟨8 * ((i 0).val / 16) + 7, hlt⟩)).set
    rw [View.set_slice_whole, Rect.mem_set_unit]
    intro a
    match a with
    | ⟨0, _⟩ =>
      show win0_4.index ⟨8 * ((i 0).val / 16) + 7, hlt⟩ 0 * 16 ≤ (i 0).val ∧ (i 0).val < win0_4.index ⟨8 * ((i 0).val / 16) + 7, hlt⟩ 0 * 16 + 16
      rw [(idx4 ⟨8 * ((i 0).val / 16) + 7, hlt⟩).1]
      show (8 * ((i 0).val / 16) + 7) / 8 * 16 ≤ (i 0).val ∧ (i 0).val < (8 * ((i 0).val / 16) + 7) / 8 * 16 + 16
      omega
    | ⟨1, _⟩ =>
      show win0_4.index ⟨8 * ((i 0).val / 16) + 7, hlt⟩ 1 * 1 ≤ (i 1).val ∧ (i 1).val < win0_4.index ⟨8 * ((i 0).val / 16) + 7, hlt⟩ 1 * 1 + 1
      rw [(idx4 ⟨8 * ((i 0).val / 16) + 7, hlt⟩).2]
      omega

end Cert.KernelIdeal.Final

end
-- ==== Proof.KRow.lean ====
/-
  The result array's rows as mathematics.

  Row `b` of the result array is the accumulator's row `b % 16` after the last time tile of batch tile `b / 16`: eight
  accumulation steps over that batch tile's tile sums, divided by 4096. Each tile sum, read through the blocks, is the
  sum over the tile's 512 time steps of the squared difference of the two variances of row `b` of the three argument
  arrays. So row `b` is `Cert.Spec.rowMean` of those rows: the tiled accumulation is the one sum over all 4096 steps.
-/
import proofs.«122349_j25503515804232_1_alg».proof.Proof.KFinal

noncomputable section

open scoped BigOperators
open Idealize.ShloMosaic Idealize.ShloMosaic.TcCoe Idealize.SL.Sem Idealize.ShloMosaic.ValueIdx
open Idealize.ShloMosaic.Pipeline (Dat)

namespace Cert.KernelIdeal.Row

open Cert.KernelIdeal Cert.KernelIdeal.Gen Cert.KernelIdeal.Inv Cert.KernelIdeal.Blocks Cert.KernelIdeal.Final

variable (m : (ℓ : Loc nD τ sig) → Buf (Elt Ideal) ℓ)

/-- Row `b`'s 16 replicate weights, and the 16 replicates of the two value arrays at row `b`, time step `t`. -/
abbrev mk (c : Dev nD) (b : Fin 512) : Fin 16 → EReal := fun r => m ((c : Thread nD τ).loc main_arg2) (ix2 b r)
abbrev at0 (c : Dev nD) (b : Fin 512) : Fin 4096 → Fin 16 → EReal := fun t r => m ((c : Thread nD τ).loc main_arg0) (ix3 b t r)
abbrev at1 (c : Dev nD) (b : Fin 512) : Fin 4096 → Fin 16 → EReal := fun t r => m ((c : Thread nD τ).loc main_arg1) (ix3 b t r)

/-- A point's tile sum through its blocks: over its 512 time steps, the squared variance difference of its row. -/
theorem partAt_eq (c : Dev nD) (t : Fin cfg0.N) (p : Fin 16) :
    partAt m c t p = ∑ q : Fin 512, Cert.Spec.sqdiff (mk m c (row t p)) (at0 m c (row t p) (tim t q))
      (at1 m c (row t p) (tim t q)) (Cert.Spec.nsafe (mk m c (row t p))) := by
  unfold partAt
  refine Finset.sum_congr rfl fun q _ => ?_
  simp only [iblk0_apply, iblk1_apply, iblk2_apply, iblk3_apply]

/-- After the last time tile of batch tile `i`, the accumulator's row `p` holds the result of batch row `16·i + p`. -/
theorem held_flush (c : Dev nD) (i : ℕ) (hi : i < 32) (p : Fin 16) (b : Fin 512) (hb : b.val = 16 * i + p.val) :
    held m c (8 * i + 7) p = Cert.Spec.rowMean (mk m c b) (at0 m c b) (at1 m c b) := by
  unfold held
  rw [if_pos (by omega)]
  refine Cert.Spec.rowMean_of_acc _ _ _ _ fun j => ?_
  have hj := j.isLt
  have hp := p.isLt
  have hlt : 8 * ((8 * i + 7) / 8) + j.val < cfg0.N := by rw [show cfg0.N = 256 from N_0]; omega
  show part m c (8 * ((8 * i + 7) / 8) + j.val) p = _
  rw [part_eq m c _ hlt, partAt_eq]
  have hrow : row ⟨8 * ((8 * i + 7) / 8) + j.val, hlt⟩ p = b :=
    Fin.ext (by show 16 * ((8 * ((8 * i + 7) / 8) + j.val) / 8) + p.val = b.val; omega)
  rw [hrow]
  refine Finset.sum_congr rfl fun q _ => ?_
  have hq := q.isLt
  have htim : tim ⟨8 * ((8 * i + 7) / 8) + j.val, hlt⟩ q = ⟨512 * j.val + q.val, by omega⟩ :=
    Fin.ext (by show 512 * ((8 * ((8 * i + 7) / 8) + j.val) % 8) + q.val = 512 * j.val + q.val; omega)
  rw [htim]

/-- Row `b` of the result array is the row's mean squared variance difference. -/
theorem res_apply (c : Dev nD) (b : Fin 512) (u : Fin 1) :
    res m c (ix2 b u) = Cert.Spec.rowMean (mk m c b) (at0 m c b) (at1 m c b) := by
  have hb := b.isLt
  exact held_flush m c (b.val / 16) (by omega) ⟨b.val % 16, Nat.mod_lt _ (by decide)⟩ b
    (by show b.val = 16 * (b.val / 16) + b.val % 16; omega)

end Cert.KernelIdeal.Row

end
-- ==== Proof.SpecTail.lean ====
/-
  What both programs do with the 512 per-row results: a row is valid when its replicate count `n` exceeds 1; the loss
  is the sum of the valid rows' results over the number of valid rows (at least 1), zero when no row is valid, times
  the weight 0.1. Both programs apply exactly these operations, so the tail is one function of `n` and of the per-row
  results and is never opened: the two sides are joined by the equality of its arguments.
-/
import Idealize.ShloMosaic.PureOps.Ideal

noncomputable section

namespace Cert.Spec

open Idealize.ShloMosaic

/-- The shapes of the per-row vectors and of the scalar result. -/
abbrev SB : Shape := ⟨1, ![512]⟩
abbrev S0 : Shape := ⟨0, ![]⟩

/-- Which rows count: those whose replicate count exceeds 1. -/
def valid (hb : S0.BroadcastsInDim SB (![] : Fin 0 → Fin SB.rank)) (n : FVec Ideal SB .f32) : IVec SB 1 :=
  cmpf .ogt n (broadcastInDim SB ![] hb (constant (F := Ideal) S0 .f32 0x3F800000#32))

/-- How many rows count, as a float sum of the indicators from the zero word. -/
def nmulti (hr : SB.ReducesTo [0] S0) (h0 : 0 < S0.numel) (hb : S0.BroadcastsInDim SB (![] : Fin 0 → Fin SB.rank))
    (n : FVec Ideal SB .f32) : FVec Ideal S0 .f32 :=
  Host.reduceAdd (uitofp (F := Ideal) .f32 (valid hb n)) (constant (F := Ideal) S0 .f32 0x00000000#32) hr h0

/-- The loss from the replicate counts `n` and the per-row results `r`. -/
def tail (hr : SB.ReducesTo [0] S0) (h0 : 0 < S0.numel) (hb : S0.BroadcastsInDim SB (![] : Fin 0 → Fin SB.rank))
    (n r : FVec Ideal SB .f32) : FVec Ideal S0 .f32 :=
  mulf (constant (F := Ideal) S0 .f32 0x3DCCCCCD#32)
    (select (cmpf .ogt (nmulti hr h0 hb n) (constant (F := Ideal) S0 .f32 0x00000000#32))
      (Host.divf
        (Host.reduceAdd
          (select (valid hb n) r (broadcastInDim SB ![] hb (id (constant (F := Ideal) S0 .f32 0x00000000#32))))
          (constant (F := Ideal) S0 .f32 0x00000000#32) hr h0)
        (maximumf (nmulti hr h0 hb n) (constant (F := Ideal) S0 .f32 0x3F800000#32)))
      (id (constant (F := Ideal) S0 .f32 0x00000000#32)))

end Cert.Spec

end
-- ==== Proof.KTail.lean ====
/-
  The kernel program's host tail as one function of its two inputs.

  After the region the kernel program applies a fixed list of host operations: the region's output array `[512, 1]`
  is reshaped to the vector `r` of the 512 per-row results; a row counts when its replicate count `n` exceeds 1; the
  loss is the sum of the counting rows' results over the number of counting rows (at least 1), zero when no row
  counts, times the weight 0.1. That list is `Cert.Spec.tail` applied to `n` and `r`.

  The buffer contents the tail starts from are the region's exit contents: the output window's array holds whatever
  the region left there (`K`, only named, never opened), and every buffer that is no array of the pipeline holds what
  the host operations before the region wrote. The one such buffer the tail reads is the vector of bits "`n` exceeds
  1", where `n` is the float sum of the row's 16 weights from the zero word.
-/
import proofs.«122349_j25503515804232_1_alg».proof.Proof.Gen.KernelIdeal.Frame
import proofs.«122349_j25503515804232_1_alg».proof.Proof.SpecTail
import Idealize.ShloMosaic.Lib.Pipeline.Value
import Idealize.ShloMosaic.Lib.StableHlo.Run
import Idealize.ShloMosaic.Lib.Tactic

noncomputable section

namespace Cert.KernelIdeal.TailValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The tail's result buffer after the host operations that follow the region, given the output array's final
    contents `K`: `Cert.Spec.tail` of the replicate counts and of `K` reshaped to a vector. Each operation's result is
    read off the list in one pass; the array's buffer is the region's (`hK`), the validity bits are the operations'
    before the region, and what remains are the same operations on both sides. -/
theorem tail_value (m : (ℓ : Loc nD τ sig) → Buf (Elt Ideal) ℓ) (c : Dev nD)
    (K : Buf (Elt Ideal) ((c : Thread nD τ).loc main_v7)) (hK : (dats m 0 c).arrAt 4 cfg0.N = K) :
    Pipeline.afterTail₀ cfgs (dats m) 0 (V0 m) [hostOps1, hostOps1_1, hostOps1_2, hostOps1_3, hostOps1_4] c main_v17
      = Cert.Spec.tail reducesTo_S512_S_d0 h_S_ bcast_S_S512
          (Host.reduceAdd (F := Ideal) (m ((c : Thread nD τ).loc main_arg2)) (constant (F := Ideal) S_ .f32 0x00000000#32) reducesTo_S512x16_S512_d1 h_S_)
          (shapeCast S512 K shapeCasts_S512x1_S512) := by
  -- the output window's array holds `K` when the region ends
  have h7 := (Pipeline.withArrays_arr spec0 launch0.win.arr_inj c (V0 m c) (fun w => (dats m 0 c).arrAt w cfg0.N) 4).trans hK
  -- the validity bits are no array of the pipeline: they are as the region found them
  have h4 := Pipeline.withArrays_of_ne spec0 c (V0 m c) (fun w => (dats m 0 c).arrAt w cfg0.N) main_v4
    (by exact (by decide : ∀ w, Pipeline.arrRef spec0 w ≠ main_v4))
  -- and the region found them as the operations before it wrote them: "the row's weight sum exceeds the word 1"
  have hv4 : V0 m c (Proc.devRef .tc main_v4)
      = cmpf .ogt (Host.reduceAdd (F := Ideal) (m ((c : Thread nD τ).loc main_arg2)) (constant (F := Ideal) S_ .f32 0x00000000#32) reducesTo_S512x16_S512_d1 h_S_)
          (broadcastInDim S512 ![] bcast_S_S512 (constant (F := Ideal) S_ .f32 0x3F800000#32)) := by
    show StableHlo.after _ _ (Proc.devRef .tc main_v4) = _
    simp only [hostOps0, List.flatten_cons, List.flatten_nil, List.append_nil, List.cons_append, List.nil_append]
    after_results_simp
  -- the operations after the region, each result read at its own buffer
  unfold Pipeline.afterTail₀
  simp only [hostOps1, hostOps1_1, hostOps1_2, hostOps1_3, hostOps1_4, List.flatten_cons, List.flatten_nil, List.append_nil, List.cons_append, List.nil_append]
  after_results_simp
  rw [h7, h4, hv4]
  -- the transports along a buffer's own type and the identity operations are the identity
  simp only [cast_eq, id_eq]
  rfl

end Cert.KernelIdeal.TailValue

end
-- ==== Proof.KRun.lean ====
/-
  The kernel program's run, read: its result as one function of the three argument arrays.

  The generated frame run leaves the accumulator's window's array at what the write-backs cover it with (`res`) and
  every other buffer as the host operations after the region leave it. The result buffer is the last of those: the
  tail `Cert.Spec.tail` of the rows' replicate counts and of `res` reshaped `[512, 1] → [512]`. The arguments end
  unchanged.
-/
import proofs.«122349_j25503515804232_1_alg».proof.Proof.KRow
import proofs.«122349_j25503515804232_1_alg».proof.Proof.KTail

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Final

variable (m : (ℓ : Loc nD τ sig) → Buf (Elt Ideal) ℓ) (ρ : Dev nD → PrngReg)

/-- The rows' replicate counts: the float sum of each row's 16 weights from the zero word. -/
def counts (c : Dev nD) : FVec Ideal S512 .f32 :=
  Host.reduceAdd (F := Ideal) (m ((c : Thread nD τ).loc main_arg2)) (constant (F := Ideal) S_ .f32 0x00000000#32) reducesTo_S512x16_S512_d1 h_S_

/-- The program's result. -/
def out (c : Dev nD) : Buf (Elt Ideal) ((c : Thread nD τ).loc main_v17) :=
  Cert.Spec.tail reducesTo_S512_S_d0 h_S_ bcast_S_S512 (counts m c) (shapeCast S512 (res m c) shapeCasts_S512x1_S512)

/-- Every weakly fair execution terminates with the result buffer at `out` and the arguments unchanged. -/
theorem run : θ_run defs (onTc (τ := τ) (main (F := Ideal))) ⟨m, fun _ => 0, ρ⟩ fun r => ∀ c : Dev nD,
      r.2.mem ((c : Thread nD τ).loc main_v17) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v17 (Pipeline.mem_restRefs_of main_v17 (by decide) (by decide))).trans
        (Cert.KernelIdeal.TailValue.tail_value m c (res m c) (final m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference program's row value as mathematics.

  Stage %43 of the reference, read at batch row `b`, is the row mean of `Cert.Spec`: the zero word plus the sum over the
  4096 time steps of the squared difference of the two masked unbiased variances, divided by the word 4096. The stages
  nest (a sum over time steps of a function of sums over replicates), so the value is read bottom-up: the clamped
  replicate count of a row, the masked mean of one time step, the deviations from it, their masked sum of squares, the
  variance, the same for the second array, the squared difference, and last the row.

  Every lemma is stated at explicit coordinates `b : Fin 512`, `t : Fin 4096`, `r : Fin 16`. The only float word that is
  evaluated is the zero word in front of the two inner sums over replicates (it is `0`, and `0 + s = s`); the words for
  1, 2 and 4096, and the zero word in front of the count and of the sum over time steps, stay as words.
-/
import proofs.«122349_j25503515804232_1_alg».proof.Proof.RefRead
import proofs.«122349_j25503515804232_1_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/-- The array of replicate weights `[512, 16]`, and the two value arrays `[512, 4096, 16]`. -/
abbrev Mask := (⟨S512x16, .f32⟩ : BufTy).Contents (Elt Ideal)
abbrev Arr := (⟨S512x4096x16, .f32⟩ : BufTy).Contents (Elt Ideal)

/-- Row `b`'s 16 replicate weights. -/
abbrev mk (x2 : Mask) (b : Fin 512) : Fin 16 → EReal := fun r => x2 (ix2 b r)
/-- The 16 replicate values of an array at row `b`, time step `t`. -/
abbrev at2 (x : Arr) (b : Fin 512) (t : Fin 4096) : Fin 16 → EReal := fun r => x (ix3 b t r)

/-! ## The clamped replicate count of a row -/

/-- Stage %2 at row `b`: the zero word plus the sum of the row's weights, but at least the word 2. -/
theorem v2_at (x2 : Mask) (b : Fin 512) :
    val_main_v2 (F := Ideal) x2 (ix1 b) = Cert.Spec.nsafe (mk x2 b) := by
  rw [val_main_v2_apply, val_main_v0_apply, val_main_v1_apply, val_main_cst_0_apply, val_main_cst_apply]
  simp only [Ideal.maximumf_def, Ideal.ofBits_def]
  unfold Cert.Spec.nsafe
  refine congrArg (max · _) (congrArg (_ + ·) (Finset.sum_congr rfl fun k _ => ?_))
  exact congrArg x2 (funext fun a => Fin.ext (by match a with | ⟨0, _⟩ => rfl | ⟨1, _⟩ => rfl))

/-- Stage %3 at `(b, 0)`: the same count with a unit axis appended. -/
theorem v3_at (x2 : Mask) (b : Fin 512) (z : Fin 1) :
    val_main_v3 (F := Ideal) x2 (ix2 b z) = Cert.Spec.nsafe (mk x2 b) := by
  rw [val_main_v3_apply, show idx_main_v3 (ix2 b z) = ix1 b from
    funext fun a => Fin.ext (by match a with | ⟨0, _⟩ => rfl), v2_at]

/-- Stage %10 at `(b, t, 0)`: the count broadcast along the time steps. -/
theorem v10_at (x2 : Mask) (b : Fin 512) (t : Fin 4096) (z : Fin 1) :
    val_main_v10 (F := Ideal) x2 (ix3 b t z) = Cert.Spec.nsafe (mk x2 b) := by
  rw [val_main_v10_apply, val_main_v9_apply, show idx_main_v9 (idx_main_v10 (ix3 b t z)) = ix2 b (0 : Fin 1) from
    funext fun a => Fin.ext (by match a with | ⟨0, _⟩ => rfl | ⟨1, _⟩ => rfl), v3_at]

/-! ## The weights broadcast along the time steps -/

/-- Stage %4 at `(b, 0, r)`: the weight of replicate `r` in row `b`. -/
theorem v4_at (x2 : Mask) (b : Fin 512) (z : Fin 1) (r : Fin 16) :
    val_main_v4 (F := Ideal) x2 (ix3 b z r) = x2 (ix2 b r) := by
  rw [val_main_v4_apply]
  exact congrArg x2 (funext fun a => Fin.ext (by match a with | ⟨0, _⟩ => rfl | ⟨1, _⟩ => rfl))

/-- Stage %5 at `(b, t, r)`: the same weight at every time step. -/
theorem v5_at (x2 : Mask) (b : Fin 512) (t : Fin 4096) (r : Fin 16) :
    val_main_v5 (F := Ideal) x2 (ix3 b t r) = x2 (ix2 b r) := by
  rw [val_main_v5_apply, show idx_main_v5 (ix3 b t r) = ix3 b (0 : Fin 1) r from
    funext fun a => Fin.ext (by match a with | ⟨0, _⟩ => rfl | ⟨1, _⟩ => rfl | ⟨2, _⟩ => rfl), v4_at]

/-- Stage %15 at `(b, t, r)`: the same broadcast again. -/
theorem v15_at (x2 : Mask) (b : Fin 512) (t : Fin 4096) (r : Fin 16) :
    val_main_v15 (F := Ideal) x2 (ix3 b t r) = x2 (ix2 b r) := by
  rw [val_main_v15_apply, show idx_main_v15 (ix3 b t r) = ix3 b (0 : Fin 1) r from
    funext fun a => Fin.ext (by match a with | ⟨0, _⟩ => rfl | ⟨1, _⟩ => rfl | ⟨2, _⟩ => rfl), v4_at]

/-! ## The first array: masked mean, deviations, sum of squares, variance -/

/-- Stage %7 at `(b, t)`: the masked sum of the 16 replicates; its leading zero word is `0`. -/
theorem v7_at (x0 : Arr) (x2 : Mask) (b : Fin 512) (t : Fin 4096) :
    val_main_v7 (F := Ideal) x0 x2 (ix2 b t) = ∑ r : Fin 16, at2 x0 b t r * mk x2 b r := by
  rw [val_main_v7_apply, val_main_cst_1_apply]
  simp only [Ideal.ofBits_def]
  rw [Ideal.ofBits_zero_f32, zero_add]
  refine Finset.sum_congr rfl fun k _ => ?_
  rw [show idx_main_v7 (ix2 b t) k = ix3 b t k from
    funext fun a => Fin.ext (by match a with | ⟨0, _⟩ => rfl | ⟨1, _⟩ => rfl | ⟨2, _⟩ => rfl),
    val_main_v6_apply, v5_at]
  rfl

/-- Stage %11 at `(b, t, 0)`: the masked mean. -/
theorem v11_at (x0 : Arr) (x2 : Mask) (b : Fin 512) (t : Fin 4096) (z : Fin 1) :
    val_main_v11 (F := Ideal) x0 x2 (ix3 b t z)
      = Cert.Spec.mean (mk x2 b) (at2 x0 b t) (Cert.Spec.nsafe (mk x2 b)) := by
  rw [val_main_v11_apply, val_main_v8_apply, show idx_main_v8 (ix3 b t z) = ix2 b t from
    funext fun a => Fin.ext (by match a with | ⟨0, _⟩ => rfl | ⟨1, _⟩ => rfl), v7_at, v10_at]
  rfl

/-- Stage %13 at `(b, t, r)`: the deviation of replicate `r` from the masked mean. -/
theorem v13_at (x0 : Arr) (x2 : Mask) (b : Fin 512) (t : Fin 4096) (r : Fin 16) :
    val_main_v13 (F := Ideal) x0 x2 (ix3 b t r)
      = at2 x0 b t r - Cert.Spec.mean (mk x2 b) (at2 x0 b t) (Cert.Spec.nsafe (mk x2 b)) := by
  rw [val_main_v13_apply, val_main_v12_apply, show idx_main_v12 (ix3 b t r) = ix3 b t (0 : Fin 1) from
    funext fun a => Fin.ext (by match a with | ⟨0, _⟩ => rfl | ⟨1, _⟩ => rfl | ⟨2, _⟩ => rfl), v11_at]
  rfl

/-- Stage %17 at `(b, t)`: the masked sum of squared deviations; its leading zero word is `0`. -/
theorem v17_at (x0 : Arr) (x2 : Mask) (b : Fin 512) (t : Fin 4096) :
    val_main_v17 (F := Ideal) x0 x2 (ix2 b t)
      = Cert.Spec.sq (mk x2 b) (at2 x0 b t) (Cert.Spec.nsafe (mk x2 b)) := by
  rw [val_main_v17_apply, val_main_cst_2_apply]
  simp only [Ideal.ofBits_def]
  rw [Ideal.ofBits_zero_f32, zero_add]
  unfold Cert.Spec.sq
  refine Finset.sum_congr rfl fun k _ => ?_
  rw [show idx_main_v17 (ix2 b t) k = ix3 b t k from
    funext fun a => Fin.ext (by match a with | ⟨0, _⟩ => rfl | ⟨1, _⟩ => rfl | ⟨2, _⟩ => rfl),
    val_main_v16_apply, val_main_v14_apply, v13_at, v15_at]
  rfl

/-- Stage %20 at `(b, t)`: the count minus the word 1. -/
theorem v20_at (x2 : Mask) (b : Fin 512) (t : Fin 4096) :
    val_main_v20 (F := Ideal) x2 (ix2 b t) = Cert.Spec.nsafe (mk x2 b) - Cert.Spec.one := by
  rw [val_main_v20_apply, val_main_v19_apply, val_main_v18_apply, val_main_cst_3_apply,
    show idx_main_v20 (ix2 b t) = ix2 b (0 : Fin 1) from
      funext fun a => Fin.ext (by match a with | ⟨0, _⟩ => rfl | ⟨1, _⟩ => rfl), v3_at]
  rfl

/-- Stage %21 at `(b, t)`: the unbiased masked variance. -/
theorem v21_at (x0 : Arr) (x2 : Mask) (b : Fin 512) (t : Fin 4096) :
    val_main_v21 (F := Ideal) x0 x2 (ix2 b t)
      = Cert.Spec.var (mk x2 b) (at2 x0 b t) (Cert.Spec.nsafe (mk x2 b)) := by
  rw [val_main_v21_apply, v17_at, v20_at]
  rfl

/-! ## The second array: the same five stages -/

/-- Stage %22 at `(b, t, r)`: the weight of replicate `r` in row `b`, at every time step. -/
theorem v22_at (x2 : Mask) (b : Fin 512) (t : Fin 4096) (r : Fin 16) :
    val_main_v22 (F := Ideal) x2 (ix3 b t r) = x2 (ix2 b r) := by
  rw [val_main_v22_apply, show idx_main_v22 (ix3 b t r) = ix3 b (0 : Fin 1) r from
    funext fun a => Fin.ext (by match a with | ⟨0, _⟩ => rfl | ⟨1, _⟩ => rfl | ⟨2, _⟩ => rfl), v4_at]

/-- Stage %32 at `(b, t, r)`: the same broadcast again. -/
theorem v32_at (x2 : Mask) (b : Fin 512) (t : Fin 4096) (r : Fin 16) :
    val_main_v32 (F := Ideal) x2 (ix3 b t r) = x2 (ix2 b r) := by
  rw [val_main_v32_apply, show idx_main_v32 (ix3 b t r) = ix3 b (0 : Fin 1) r from
    funext fun a => Fin.ext (by match a with | ⟨0, _⟩ => rfl | ⟨1, _⟩ => rfl | ⟨2, _⟩ => rfl), v4_at]

/-- Stage %27 at `(b, t, 0)`: the count broadcast along the time steps. -/
theorem v27_at (x2 : Mask) (b : Fin 512) (t : Fin 4096) (z : Fin 1) :
    val_main_v27 (F := Ideal) x2 (ix3 b t z) = Cert.Spec.nsafe (mk x2 b) := by
  rw [val_main_v27_apply, val_main_v26_apply, show idx_main_v26 (idx_main_v27 (ix3 b t z)) = ix2 b (0 : Fin 1) from
    funext fun a => Fin.ext (by match a with | ⟨0, _⟩ => rfl | ⟨1, _⟩ => rfl), v3_at]

/-- Stage %24 at `(b, t)`: the masked sum of the 16 replicates; its leading zero word is `0`. -/
theorem v24_at (x1 : Arr) (x2 : Mask) (b : Fin 512) (t : Fin 4096) :
    val_main_v24 (F := Ideal) x1 x2 (ix2 b t) = ∑ r : Fin 16, at2 x1 b t r * mk x2 b r := by
  rw [val_main_v24_apply, val_main_cst_4_apply]
  simp only [Ideal.ofBits_def]
  rw [Ideal.ofBits_zero_f32, zero_add]
  refine Finset.sum_congr rfl fun k _ => ?_
  rw [show idx_main_v24 (ix2 b t) k = ix3 b t k from
    funext fun a => Fin.ext (by match a with | ⟨0, _⟩ => rfl | ⟨1, _⟩ => rfl | ⟨2, _⟩ => rfl),
    val_main_v23_apply, v22_at]
  rfl

/-- Stage %28 at `(b, t, 0)`: the masked mean. -/
theorem v28_at (x1 : Arr) (x2 : Mask) (b : Fin 512) (t : Fin 4096) (z : Fin 1) :
    val_main_v28 (F := Ideal) x1 x2 (ix3 b t z)
      = Cert.Spec.mean (mk x2 b) (at2 x1 b t) (Cert.Spec.nsafe (mk x2 b)) := by
  rw [val_main_v28_apply, val_main_v25_apply, show idx_main_v25 (ix3 b t z) = ix2 b t from
    funext fun a => Fin.ext (by match a with | ⟨0, _⟩ => rfl | ⟨1, _⟩ => rfl), v24_at, v27_at]
  rfl

/-- Stage %30 at `(b, t, r)`: the deviation of replicate `r` from the masked mean. -/
theorem v30_at (x1 : Arr) (x2 : Mask) (b : Fin 512) (t : Fin 4096) (r : Fin 16) :
    val_main_v30 (F := Ideal) x1 x2 (ix3 b t r)
      = at2 x1 b t r - Cert.Spec.mean (mk x2 b) (at2 x1 b t) (Cert.Spec.nsafe (mk x2 b)) := by
  rw [val_main_v30_apply, val_main_v29_apply, show idx_main_v29 (ix3 b t r) = ix3 b t (0 : Fin 1) from
    funext fun a => Fin.ext (by match a with | ⟨0, _⟩ => rfl | ⟨1, _⟩ => rfl | ⟨2, _⟩ => rfl), v28_at]
  rfl

/-- Stage %34 at `(b, t)`: the masked sum of squared deviations; its leading zero word is `0`. -/
theorem v34_at (x1 : Arr) (x2 : Mask) (b : Fin 512) (t : Fin 4096) :
    val_main_v34 (F := Ideal) x1 x2 (ix2 b t)
      = Cert.Spec.sq (mk x2 b) (at2 x1 b t) (Cert.Spec.nsafe (mk x2 b)) := by
  rw [val_main_v34_apply, val_main_cst_5_apply]
  simp only [Ideal.ofBits_def]
  rw [Ideal.ofBits_zero_f32, zero_add]
  unfold Cert.Spec.sq
  refine Finset.sum_congr rfl fun k _ => ?_
  rw [show idx_main_v34 (ix2 b t) k = ix3 b t k from
    funext fun a => Fin.ext (by match a with | ⟨0, _⟩ => rfl | ⟨1, _⟩ => rfl | ⟨2, _⟩ => rfl),
    val_main_v33_apply, val_main_v31_apply, v30_at, v32_at]
  rfl

/-- Stage %37 at `(b, t)`: the count minus the word 1. -/
theorem v37_at (x2 : Mask) (b : Fin 512) (t : Fin 4096) :
    val_main_v37 (F := Ideal) x2 (ix2 b t) = Cert.Spec.nsafe (mk x2 b) - Cert.Spec.one := by
  rw [val_main_v37_apply, val_main_v36_apply, val_main_v35_apply, val_main_cst_6_apply,
    show idx_main_v37 (ix2 b t) = ix2 b (0 : Fin 1) from
      funext fun a => Fin.ext (by match a with | ⟨0, _⟩ => rfl | ⟨1, _⟩ => rfl), v3_at]
  rfl

/-- Stage %38 at `(b, t)`: the unbiased masked variance. -/
theorem v38_at (x1 : Arr) (x2 : Mask) (b : Fin 512) (t : Fin 4096) :
    val_main_v38 (F := Ideal) x1 x2 (ix2 b t)
      = Cert.Spec.var (mk x2 b) (at2 x1 b t) (Cert.Spec.nsafe (mk x2 b)) := by
  rw [val_main_v38_apply, v34_at, v37_at]
  rfl

/-! ## One time step, and the row -/

/-- Stage %40 at `(b, t)`: the squared difference of the two variances. -/
theorem v40_at (x0 x1 : Arr) (x2 : Mask) (b : Fin 512) (t : Fin 4096) :
    val_main_v40 (F := Ideal) x0 x1 x2 (ix2 b t)
      = Cert.Spec.sqdiff (mk x2 b) (at2 x0 b t) (at2 x1 b t) (Cert.Spec.nsafe (mk x2 b)) := by
  rw [val_main_v40_apply, val_main_v39_apply, v21_at, v38_at]
  rfl

/-- Stage %43 at row `b`: the zero word plus the sum over the 4096 time steps of the squared variance differences,
    divided by the word 4096. -/
theorem row_apply (x0 x1 : (⟨S512x4096x16, .f32⟩ : BufTy).Contents (Elt Ideal)) (x2 : (⟨S512x16, .f32⟩ : BufTy).Contents (Elt Ideal)) (b : Fin 512) :
    Cert.ReferenceIdeal.ReadP.val_main_v43 (F := Ideal) x0 x1 x2 (ValueIdx.ix1 b)
      = Cert.Spec.rowMean (fun r => x2 (ValueIdx.ix2 b r)) (fun t r => x0 (ValueIdx.ix3 b t r)) (fun t r => x1 (ValueIdx.ix3 b t r)) := by
  rw [val_main_v43_apply, val_main_v41_apply, val_main_v42_apply, val_main_cst_8_apply, val_main_cst_7_apply]
  simp only [Ideal.hostDivf_def, Ideal.ofBits_def]
  unfold Cert.Spec.rowMean
  refine congrArg (Ideal.div · _) (congrArg (_ + ·) (Finset.sum_congr rfl fun k _ => ?_))
  rw [show idx_main_v41 (ix1 b) k = ix2 b k from
    funext fun a => Fin.ext (by match a with | ⟨0, _⟩ => rfl | ⟨1, _⟩ => rfl), v40_at]

end Cert.ReferenceIdeal.RefValue

end
-- ==== Proof.Bridge.lean ====
/-
  The two programs compute one function.

  Both results are `Cert.Spec.tail` of the rows' replicate counts and of the 512 per-row results. The counts are the
  same sum of the third argument's rows on both sides. The per-row results agree row by row: the reference's is the mean
  over all 4096 time steps in one reduction, the kernel's the same mean accumulated over 8 tiles of 512 steps, and both
  are `Cert.Spec.rowMean` of the row of the three arguments.
-/
import proofs.«122349_j25503515804232_1_alg».proof.Proof.KRun
import proofs.«122349_j25503515804232_1_alg».proof.Proof.RefValue
import proofs.«122349_j25503515804232_1_alg».proof.Proof.SpecTail

noncomputable section

open Idealize.ShloMosaic Idealize.ShloMosaic.TcCoe Idealize.SL.Sem Idealize.ShloMosaic.ValueIdx

namespace Cert.Bridge

open Cert.KernelIdeal Cert.KernelIdeal.Gen

variable (m : (ℓ : Loc nD τ sig) → Buf (Elt Ideal) ℓ)

/-- The reference's per-row stage, at the kernel's arguments, is the kernel's result array reshaped to a vector. -/
theorem rows_eq (c : Dev nD) :
    Cert.ReferenceIdeal.ReadP.val_main_v43 (F := Ideal) (m ((c : Thread nD τ).loc main_arg0)) (m ((c : Thread nD τ).loc main_arg1))
        (m ((c : Thread nD τ).loc main_arg2))
      = shapeCast S512 (Cert.KernelIdeal.Final.res m c) shapeCasts_S512x1_S512 := by
  funext i
  obtain ⟨b, rfl⟩ : ∃ b : Fin 512, i = ix1 b := ⟨i 0, eq_ix1 i⟩
  rw [Cert.ReferenceIdeal.RefValue.row_apply, Cert.LibKeepdims3.shapeCast_a1_a_apply, Cert.KernelIdeal.Row.res_apply]

/-- The reference's result term, at the kernel's arguments, is the kernel's result. -/
theorem result_eq (c : Dev nD) :
    Cert.ReferenceIdeal.ReadP.val_main_v54 (F := Ideal) (m ((c : Thread nD τ).loc main_arg0)) (m ((c : Thread nD τ).loc main_arg1))
        (m ((c : Thread nD τ).loc main_arg2))
      = Cert.KernelIdeal.RunValue.out m c := by
  show Cert.Spec.tail _ _ _ (Cert.ReferenceIdeal.ReadP.val_main_v0 (F := Ideal) (m ((c : Thread nD τ).loc main_arg2)))
      (Cert.ReferenceIdeal.ReadP.val_main_v43 (F := Ideal) (m ((c : Thread nD τ).loc main_arg0)) (m ((c : Thread nD τ).loc main_arg1))
        (m ((c : Thread nD τ).loc main_arg2))) = _
  rw [rows_eq]
  rfl

end Cert.Bridge

end
-- ==== Proof.lean ====
/-
  A replicate-coherence loss, computed two ways, is one function over the extended reals.

  The inputs are two arrays `pred`, `target` of shape [512, 4096, 16] (batch row, time step, replicate) and replicate
  weights `mask` of shape [512, 16]. For a row `b` let `n = 0 + ∑ᵣ mask[b,r]` and `ns = max(n, 2)`. At each time step the
  masked mean of an array's 16 replicates is `(∑ᵣ x·mask) / ns`, its masked unbiased variance
  `(∑ᵣ (x − mean)²·mask) / (ns − 1)`, and the step contributes the squared difference of the two arrays' variances. A
  row's value is the mean of that over its 4096 time steps. The loss is 0.1 times the sum of the values of the rows with
  `n > 1` over the number of such rows (at least 1), and 0 when there is none.

  The reference sums a row's 4096 contributions in one reduction. The kernel walks a 32 × 8 grid — 32 tiles of 16 rows,
  8 tiles of 512 time steps — and keeps a [16, 1] accumulator per row tile: zeroed at the first time tile, increased by
  the tile's partial sum at every time tile, divided by 4096 and written to the result array after the last. Everything
  else — the per-step arithmetic, the clamped counts, the final masking and averaging — is the same operations on both
  sides. The one law between them is that a sum over 4096 = 8 · 512 indices is the sum over the 8 tiles of the tile sums:
  commutativity and associativity of addition, which hold on the extended reals, so the inputs' finiteness is never used.

  The modules: Spec (the mathematics and the regrouping law), SpecTail (the shared last operations as one function),
  KCases (what each of the body's three cases leaves in the accumulator), KPayload (the body's arithmetic at an entry),
  KInvariant (the accumulator after every grid point, by induction), KBlocks (blocks as entries of the arguments),
  KFinal (write-backs to the result array), KRow (a result row is the row's mean), KTail and KRun (the kernel program's
  run), RefValue (the reference's per-row stage is the row's mean), Bridge (the two results are equal).
-/
import proofs.«122349_j25503515804232_1_alg».proof.Defs
import proofs.«122349_j25503515804232_1_alg».proof.Proof.Gen.Kernel
import proofs.«122349_j25503515804232_1_alg».proof.Proof.Gen.Kernel.Skeleton
import proofs.«122349_j25503515804232_1_alg».proof.Proof.Gen.Kernel.Launch
import proofs.«122349_j25503515804232_1_alg».proof.Proof.Gen.Kernel.Points
import proofs.«122349_j25503515804232_1_alg».proof.Proof.Gen.Kernel.Frame
import proofs.«122349_j25503515804232_1_alg».proof.Proof.Gen.KernelIdeal
import proofs.«122349_j25503515804232_1_alg».proof.Proof.Gen.KernelIdeal.Skeleton
import proofs.«122349_j25503515804232_1_alg».proof.Proof.Gen.KernelIdeal.Launch
import proofs.«122349_j25503515804232_1_alg».proof.Proof.Gen.KernelIdeal.Points
import proofs.«122349_j25503515804232_1_alg».proof.Proof.Gen.KernelIdeal.Frame
import proofs.«122349_j25503515804232_1_alg».proof.Proof.Gen.ReferenceIdeal
import proofs.«122349_j25503515804232_1_alg».proof.Proof.RefRun
import proofs.«122349_j25503515804232_1_alg».proof.Proof.RefRead
import proofs.«122349_j25503515804232_1_alg».proof.Proof.Bridge
import proofs.«122349_j25503515804232_1_alg».proof.Proof.Gen.Pre_finite_inputs
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the three arguments both idealized programs end with the same result: the kernel's
    at its tail of the counts and of the accumulated rows, the reference's at its composed term, which at the agreeing
    arguments is that same value. -/
theorem algebraic : Cert.algebraic_KernelIdeal_ReferenceIdeal := by
  intro m ρ m' ρ' _ hagree
  refine ⟨fun c => Cert.KernelIdeal.RunValue.out m c, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v54_eq, (hagree c).1, (hagree c).2.1, (hagree c).2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
